-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x16 : Shape := ⟨3, ![4, 1024, 16]⟩
abbrev S32x32 : Shape := ⟨2, ![32, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S4x1024x16 : S_.BroadcastsInDim S4x1024x16 (![] : Fin 0 → Fin S4x1024x16.rank)
  reducesTo_S4x1024x16_S_d0_1_2 : S4x1024x16.ReducesTo [0, 1, 2] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S32x1 1) : IVec S_ 1 :=
  let main_c_5 : IVec S_ 1 := constantI S_ 1 1#1
  let main_v17 : IVec S_ 1 := (fun x v => Host.reduce IntOp.andi x v reducesTo_S32x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S4x1024x16 .f32) (main_arg1 : FVec F S32x32 .f32) (main_arg2 : FVec F S32 .f32) (main_arg3 : FVec F S32x1 .f32) (main_arg4 : FVec F S1 .f32) : IVec S_ 1 :=
  let main_v0 : FVec F S4x1024x16 .f32 := Host.absf main_arg0
  let main_cst : FVec F S_ .f32 := constant S_ .f32 0x7F800000#32
  let main_v1 : FVec F S4x1024x16 .f32 := broadcastInDim S4x1024x16 ![] bcast_S_S4x1024x16 main_cst
  let main_v2 : IVec S4x1024x16 1 := cmpf .olt main_v0 main_v1
  let main_c : IVec S_ 1 := constantI S_ 1 1#1
  let main_v3 : IVec S_ 1 := (fun x v => Host.reduce IntOp.andi x v reducesTo_S4x1024x16_S_d0_1_2 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x1 .f32 := Host.absf main_arg3
  let main_cst_4 : FVec F S_ .f32 := constant S_ .f32 0x7F800000#32
  let main_v15 : FVec F S32x1 .f32 := broadcastInDim S32x1 ![] bcast_S_S32x1 main_cst_4
  let main_v16 : IVec S32x1 1 := cmpf .olt main_v14 main_v15
  fn_part1 (F := F) main_arg4 main_v13 main_v16
-- ==== Kernel.lean ====
abbrev S4x1024x16 : Shape := ⟨3, ![4, 1024, 16]⟩
abbrev S32x32 : Shape := ⟨2, ![32, 32]⟩
abbrev S32 : Shape := ⟨1, ![32]⟩
abbrev S32x1 : Shape := ⟨2, ![32, 1]⟩
abbrev S1 : Shape := ⟨1, ![1]⟩
abbrev S1x32 : Shape := ⟨2, ![1, 32]⟩
abbrev S1x1 : Shape := ⟨2, ![1, 1]⟩
abbrev S4x1024x1024 : Shape := ⟨3, ![4, 1024, 1024]⟩
abbrev S1x128x16 : Shape := ⟨3, ![1, 128, 16]⟩
abbrev S1x256x16 : Shape := ⟨3, ![1, 256, 16]⟩
abbrev S1x128x256 : Shape := ⟨3, ![1, 128, 256]⟩
abbrev S128x16 : Shape := ⟨2, ![128, 16]⟩
abbrev S256x16 : Shape := ⟨2, ![256, 16]⟩
abbrev S16x32 : Shape := ⟨2, ![16, 32]⟩
abbrev S128x32 : Shape := ⟨2, ![128, 32]⟩
abbrev S256x32 : Shape := ⟨2, ![256, 32]⟩
abbrev S32x128 : Shape := ⟨2, ![32, 128]⟩
abbrev S32x256 : Shape := ⟨2, ![32, 256]⟩
abbrev S32x128x1 : Shape := ⟨3, ![32, 128, 1]⟩
abbrev S32x1x256 : Shape := ⟨3, ![32, 1, 256]⟩
abbrev S32x128x256 : Shape := ⟨3, ![32, 128, 256]⟩
abbrev S32x1x1 : Shape := ⟨3, ![32, 1, 1]⟩
abbrev S128x256 : Shape := ⟨2, ![128, 256]⟩

abbrev nBuf : Space → Nat
  | .hbm => 8
  | .vmem => 10
  | .smem => 0
  | _ => 0

abbrev bufTy : (tb : Table) → Fin (tcTables nBuf tb) → BufTy
  | .hbm, ⟨0, _⟩ => ⟨S4x1024x16, .f32⟩
  | .hbm, ⟨1, _⟩ => ⟨S32x32, .f32⟩
  | .hbm, ⟨2, _⟩ => ⟨S32, .f32⟩
  | .hbm, ⟨3, _⟩ => ⟨S32x1, .f32⟩
  | .hbm, ⟨4, _⟩ => ⟨S1, .f32⟩
  | .hbm, ⟨5, _⟩ => ⟨S1x32, .f32⟩
  | .hbm, ⟨6, _⟩ => ⟨S1x1, .f32⟩
  | .hbm, ⟨7, _⟩ => ⟨S4x1024x1024, .f32⟩
  | .local _ .vmem, ⟨0, _⟩ => ⟨S1x128x16, .f32⟩
  | .local _ .vmem, ⟨1, _⟩ => ⟨S1x128x16, .f32⟩
  | .local _ .vmem, ⟨2, _⟩ => ⟨S1x256x16, .f32⟩
  | .local _ .vmem, ⟨3, _⟩ => ⟨S1x256x16, .f32⟩
  | .local _ .vmem, ⟨4, _⟩ => ⟨S32x32, .f32⟩
  | .local _ .vmem, ⟨5, _⟩ => ⟨S1x32, .f32⟩
  | .local _ .vmem, ⟨6, _⟩ => ⟨S32x1, .f32⟩
  | .local _ .vmem, ⟨7, _⟩ => ⟨S1x1, .f32⟩
  | .local _ .vmem, ⟨8, _⟩ => ⟨S1x128x256, .f32⟩
  | .local _ .vmem, ⟨9, _⟩ => ⟨S1x128x256, .f32⟩
  | _, _ => ⟨S4x1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

class Facts₀ : Prop where
  shapeCasts_S32_S1x32 : S32.ShapeCasts S1x32
  shapeCasts_S1_S1x1 : S1.ShapeCasts S1x1
  inb_S1x128x16_S1x128x16_0_0_0 : ∀ a, (![0, 0, 0] : Fin 3 → Nat) a + S1x128x16.size a ≤ S1x128x16.size a
  h_S1x128x16 : 0 < S1x128x16.numel
  shapeCasts_S1x128x16_S128x16 : S1x128x16.ShapeCasts S128x16
  bitsLt_bf16_f32 : FTy.bits .bf16 < FTy.bits .f32
  inb_S1x256x16_S1x256x16_0_0_0 : ∀ a, (![0, 0, 0] : Fin 3 → Nat) a + S1x256x16.size a ≤ S1x256x16.size a
  h_S1x256x16 : 0 < S1x256x16.numel
  shapeCasts_S1x256x16_S256x16 : S1x256x16.ShapeCasts S256x16
  inb_S32x32_S32x32_0_0 : ∀ a, (![0, 0] : Fin 2 → Nat) a + S32x32.size a ≤ S32x32.size a
  h_S32x32 : 0 < S32x32.numel
  slices_S32x32_o0_0_S16x32 : S32x32.Slices ![0, 0] S16x32
  slices_S32x32_o16_0_S16x32 : S32x32.Slices ![16, 0] S16x32
  transposes_S128x32_p1_0_S32x128 : S128x32.Transposes [1, 0] S32x128
  transposes_S256x32_p1_0_S32x256 : S256x32.Transposes [1, 0] S32x256
  inb_S1x32_S1x32_0_0 : ∀ a, (![0, 0] : Fin 2 → Nat) a + S1x32.size a ≤ S1x32.size a
  h_S1x32 : 0 < S1x32.numel
  shapeCasts_S1x32_S1x32 : S1x32.ShapeCasts S1x32
  transposes_S1x32_p1_0_S32x1 : S1x32.Transposes [1, 0] S32x1
  shapeCasts_S32x128_S32x128x1 : S32x128.ShapeCasts S32x128x1
  shapeCasts_S32x256_S32x1x256 : S32x256.ShapeCasts S32x1x256
  broadcasts_S32x128x1_S32x128x256 : S32x128x1.Broadcasts S32x128x256
  broadcasts_S32x1x256_S32x128x256 : S32x1x256.Broadcasts S32x128x256
  shapeCasts_S32x1_S32x1x1 : S32x1.ShapeCasts S32x1x1
  broadcasts_S32x1x1_S32x128x256 : S32x1x1.Broadcasts S32x128x256
  inb_S32x1_S32x1_0_0 : ∀ a, (![0, 0] : Fin 2 → Nat) a + S32x1.size a ≤ S32x1.size a
  h_S32x1 : 0 < S32x1.numel
  shapeCasts_S32x1_S32 : S32x1.ShapeCasts S32
  shapeCasts_S32_S32x1x1 : S32.ShapeCasts S32x1x1
  reduces_S32x128x256_S128x256 : S32x128x256.Reduces [0] S128x256
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S1x128x256 : S128x256.ShapeCasts S1x128x256
  dot_S128x16_S16x32_S128x32_1_0_0_1_n_n_wf : DotDims.WF S128x16 S16x32 S128x32 [1] [0] [0] [1] [] []
  dot_S256x16_S16x32_S256x32_1_0_0_1_n_n_wf : DotDims.WF S256x16 S16x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x16.size a ≤ S4x1024x16.size a
  hwx0_0 : ∀ i : grid0.Coords, EltTy.bits .f32 = 32 ∨ (Rect.block (s := S4x1024x16) S1x128x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x16.size a ≤ S4x1024x16.size a
  hwx0_1 : ∀ i : grid0.Coords, EltTy.bits .f32 = 32 ∨ (Rect.block (s := S4x1024x16) S1x256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x256.size a ≤ S4x1024x1024.size a
  hwx0_6 : ∀ i : grid0.Coords, EltTy.bits .f32 = 32 ∨ (Rect.block (s := S4x1024x1024) S1x128x256.size (cc0_transform_6 i) (hinb0_6 i)).WholeWords (EltTy.packing .f32)

variable [Facts₀]

def dot_S128x16_S16x32_S128x32_1_0_0_1_n_n : DotDims S128x16 S16x32 S128x32 where
  lhsContracting := [1]
  rhsContracting := [0]
  lhsNonContracting := [0]
  rhsNonContracting := [1]
  lhsBatch := []
  rhsBatch := []
  wf := dot_S128x16_S16x32_S128x32_1_0_0_1_n_n_wf
def dot_S256x16_S16x32_S256x32_1_0_0_1_n_n : DotDims S256x16 S16x32 S256x32 where
  lhsContracting := [1]
  rhsContracting := [0]
  lhsNonContracting := [0]
  rhsNonContracting := [1]
  lhsBatch := []
  rhsBatch := []
  wf := dot_S256x16_S16x32_S256x32_1_0_0_1_n_n_wf

abbrev win0_0 : Pipeline.Window sig grid0 :=
  Pipeline.Window.ofSpec (Memref.whole main_arg0) S1x128x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x1024x16 : Shape := ⟨3, ![4, 1024, 16]⟩
abbrev S32x32 : Shape := ⟨2, ![32, 32]⟩
abbrev S32 : Shape := ⟨1, ![32]⟩
abbrev S32x1 : Shape := ⟨2, ![32, 1]⟩
abbrev S1 : Shape := ⟨1, ![1]⟩
abbrev S16x32 : Shape := ⟨2, ![16, 32]⟩
abbrev S4x1024x32 : Shape := ⟨3, ![4, 1024, 32]⟩
abbrev S4x1024x1x32 : Shape := ⟨4, ![4, 1024, 1, 32]⟩
abbrev S4x1x1024x32 : Shape := ⟨4, ![4, 1, 1024, 32]⟩
abbrev S4x1024x1024x32 : Shape := ⟨4, ![4, 1024, 1024, 32]⟩
abbrev S1x1x1x32 : Shape := ⟨4, ![1, 1, 1, 32]⟩
abbrev S_ : Shape := ⟨0, ![]⟩
abbrev S4x1024x1024x1 : Shape := ⟨4, ![4, 1024, 1024, 1]⟩
abbrev S1x1x1x1 : Shape := ⟨4, ![1, 1, 1, 1]⟩
abbrev S4x1024x1024 : Shape := ⟨3, ![4, 1024, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4x1024x16, .f32⟩
  | .hbm, ⟨1, _⟩ => ⟨S32x32, .f32⟩
  | .hbm, ⟨2, _⟩ => ⟨S32, .f32⟩
  | .hbm, ⟨3, _⟩ => ⟨S32x1, .f32⟩
  | .hbm, ⟨4, _⟩ => ⟨S1, .f32⟩
  | .hbm, ⟨5, _⟩ => ⟨S16x32, .f32⟩
  | .hbm, ⟨6, _⟩ => ⟨S4x1024x32, .f32⟩
  | .hbm, ⟨7, _⟩ => ⟨S16x32, .f32⟩
  | .hbm, ⟨8, _⟩ => ⟨S4x1024x32, .f32⟩
  | .hbm, ⟨9, _⟩ => ⟨S4x1024x1x32, .f32⟩
  | .hbm, ⟨10, _⟩ => ⟨S4x1x1024x32, .f32⟩
  | .hbm, ⟨11, _⟩ => ⟨S4x1024x1024x32, .f32⟩
  | .hbm, ⟨12, _⟩ => ⟨S4x1024x1024x32, .f32⟩
  | .hbm, ⟨13, _⟩ => ⟨S4x1024x1024x32, .f32⟩
  | .hbm, ⟨14, _⟩ => ⟨S1x1x1x32, .f32⟩
  | .hbm, ⟨15, _⟩ => ⟨S4x1024x1024x32, .f32⟩
  | .hbm, ⟨16, _⟩ => ⟨S4x1024x1024x32, .f32⟩
  | .hbm, ⟨17, _⟩ => ⟨S_, .f32⟩
  | .hbm, ⟨18, _⟩ => ⟨S4x1024x1024x32, .f32⟩
  | .hbm, ⟨19, _⟩ => ⟨S4x1024x1024x32, .f32⟩
  | .hbm, ⟨20, _⟩ => ⟨S4x1024x1024x1, .f32⟩
  | .hbm, ⟨21, _⟩ => ⟨S1x1x1x1, .f32⟩
  | .hbm, ⟨22, _⟩ => ⟨S4x1024x1024x1, .f32⟩
  | .hbm, ⟨23, _⟩ => ⟨S4x1024x1024x1, .f32⟩
  | .hbm, ⟨24, _⟩ => ⟨S4x1024x1024x1, .f32⟩
  | .hbm, ⟨25, _⟩ => ⟨S4x1024x1024x1, .f32⟩
  | .hbm, ⟨26, _⟩ => ⟨S_, .f32⟩
  | .hbm, ⟨27, _⟩ => ⟨S4x1024x1024x1, .f32⟩
  | .hbm, ⟨28, _⟩ => ⟨S4x1024x1024x1, .f32⟩
  | .hbm, ⟨29, _⟩ => ⟨S_, .f32⟩
  | .hbm, ⟨30, _⟩ => ⟨S4x1024x1024x1, .f32⟩
  | .hbm, ⟨31, _⟩ => ⟨S4x1024x1024x1, .f32⟩
  | .hbm, ⟨32, _⟩ => ⟨S4x1024x1024, .f32⟩
  | _, _ => ⟨S4x1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  slices_S32x32_S16x32_0_0 : S32x32.Slices ![0, 0] S16x32
  slices_S32x32_S16x32_16_0 : S32x32.Slices ![16, 0] S16x32
  bcast_S4x1024x32_S4x1024x1x32_0_1_3 : S4x1024x32.BroadcastsInDim S4x1024x1x32 (![0, 1, 3] : Fin 3 → Fin S4x1024x1x32.rank)
  bcast_S4x1024x32_S4x1x1024x32_0_2_3 : S4x1024x32.BroadcastsInDim S4x1x1024x32 (![0, 2, 3] : Fin 3 → Fin S4x1x1024x32.rank)
  bcast_S4x1024x1x32_S4x1024x1024x32_0_1_2_3 : S4x1024x1x32.BroadcastsInDim S4x1024x1024x32 (![0, 1, 2, 3] : Fin 4 → Fin S4x1024x1024x32.rank)
  bcast_S4x1x1024x32_S4x1024x1024x32_0_1_2_3 : S4x1x1024x32.BroadcastsInDim S4x1024x1024x32 (![0, 1, 2, 3] : Fin 4 → Fin S4x1024x1024x32.rank)
  bcast_S32_S1x1x1x32_3 : S32.BroadcastsInDim S1x1x1x32 (![3] : Fin 1 → Fin S1x1x1x32.rank)
  bcast_S1x1x1x32_S4x1024x1024x32_0_1_2_3 : S1x1x1x32.BroadcastsInDim S4x1024x1024x32 (![0, 1, 2, 3] : Fin 4 → Fin S4x1024x1024x32.rank)
  bcast_S_S4x1024x1024x32 : S_.BroadcastsInDim S4x1024x1024x32 (![] : Fin 0 → Fin S4x1024x1024x32.rank)
  bcast_S1_S1x1x1x1_3 : S1.BroadcastsInDim S1x1x1x1 (![3] : Fin 1 → Fin S1x1x1x1.rank)
  bcast_S1x1x1x1_S4x1024x1024x1_0_1_2_3 : S1x1x1x1.BroadcastsInDim S4x1024x1024x1 (![0, 1, 2, 3] : Fin 4 → Fin S4x1024x1024x1.rank)
  bcast_S_S4x1024x1024x1 : S_.BroadcastsInDim S4x1024x1024x1 (![] : Fin 0 → Fin S4x1024x1024x1.rank)
  shapeCasts_S4x1024x1024x1_S4x1024x1024 : S4x1024x1024x1.ShapeCasts S4x1024x1024
  dot_S4x1024x16_S16x32_S4x1024x32_2_0_01_1_n_n_wf : DotDims.WF S4x1024x16 S16x32 S4x1024x32 [2] [0] [0, 1] [1] [] []
  dot_S4x1024x1024x32_S32x1_S4x1024x1024x1_3_0_012_1_n_n_wf : DotDims.WF S4x1024x1024x32 S32x1 S4x1024x1024x1 [3] [0] [0, 1, 2] [1] [] []

variable [Facts₀]

def dot_S4x1024x16_S16x32_S4x1024x32_2_0_01_1_n_n : DotDims S4x1024x16 S16x32 S4x1024x32 where
  lhsContracting := [2]
  rhsContracting := [0]
  lhsNonContracting := [0, 1]
  rhsNonContracting := [1]
  lhsBatch := []
  rhsBatch := []
  wf := dot_S4x1024x16_S16x32_S4x1024x32_2_0_01_1_n_n_wf
def dot_S4x1024x1024x32_S32x1_S4x1024x1024x1_3_0_012_1_n_n : DotDims S4x1024x1024x32 S32x1 S4x1024x1024x1 where
  lhsContracting := [3]
  rhsContracting := [0]
  lhsNonContracting := [0, 1, 2]
  rhsNonContracting := [1]
  lhsBatch := []
  rhsBatch := []
  wf := dot_S4x1024x1024x32_S32x1_S4x1024x1024x1_3_0_012_1_n_n_wf

class Facts : Prop extends Facts₀ where

variable [Facts]
-- ==== Proof.KernelBody.lean ====
/-
  The kernel body of `Kernel` at one grid point: the program up to the kernel call, each window's block of its
  array, what the body leaves in the output tile's staging buffer, the body's triple, and the proof data of the call.
  A grid point is (graph, row tile of 128 nodes, column tile of 256 nodes); the body loads the two embedding tiles and
  the four parameter arrays whole and stores the 128 × 256 tile of pair scores.
-/
import proofs.«104925_j59760174957314_1_alg».proof.Proof.Gen.Kernel.Launch
import proofs.«104925_j59760174957314_1_alg».proof.Proof.Gen.Kernel.Skeleton
import proofs.«104925_j59760174957314_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel call

The program reshapes the two bias vectors (`b1` to a row, `b2` to a 1×1 matrix) and then calls the kernel. -/

/-- The device's buffers when the kernel call is entered: the launch memory after the two reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the two reshapes followed by the kernel call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the kernel call writes `main_arg0`: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the kernel call writes `main_arg1`: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the kernel call writes `main_arg2`: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the kernel call writes `main_arg3`: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the kernel call writes `main_arg4`: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block of its array at grid point `t`, the array as the kernel call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block of the array at every grid point, whether the point
    fetches it or the block index has not moved since the last fetch. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block of the array at every grid point, whether the point
    fetches it or the block index has not moved since the last fetch. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block of the array at every grid point, whether the point
    fetches it or the block index has not moved since the last fetch. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block of the array at every grid point, whether the point
    fetches it or the block index has not moved since the last fetch. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block of the array at every grid point, whether the point
    fetches it or the block index has not moved since the last fetch. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block of the array at every grid point, whether the point
    fetches it or the block index has not moved since the last fetch. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store take a staging buffer whole -/

abbrev rE : Rect S1x128x16 := Rect.unit (s := S1x128x16) ![0, 0, 0] S1x128x16.size inb_S1x128x16_S1x128x16_0_0_0
abbrev rJ : Rect S1x256x16 := Rect.unit (s := S1x256x16) ![0, 0, 0] S1x256x16.size inb_S1x256x16_S1x256x16_0_0_0
abbrev rW : Rect S32x32 := Rect.unit (s := S32x32) ![0, 0] S32x32.size inb_S32x32_S32x32_0_0
abbrev rB : Rect S1x32 := Rect.unit (s := S1x32) ![0, 0] S1x32.size inb_S1x32_S1x32_0_0
abbrev rU : Rect S32x1 := Rect.unit (s := S32x1) ![0, 0] S32x1.size inb_S32x1_S32x1_0_0
abbrev rC : Rect S1x1 := Rect.unit (s := S1x1) ![0, 0] S1x1.size inb_S1x1_S1x1_0_0
abbrev rO : Rect S1x128x256 := Rect.unit (s := S1x128x256) ![0, 0, 0] S1x128x256.size inb_S1x128x256_S1x128x256_0_0_0

/-- What the body leaves in the output window's staging buffer, from the six input blocks: its one store, of the
    tile of edge probabilities computed from the loads. -/
def outTile (x0 : Vec F S1x128x16 .f32) (x1 : Vec F S1x256x16 .f32) (x2 : Vec F S32x32 .f32) (x3 : Vec F S1x32 .f32)
    (x4 : Vec F S32x1 .f32) (x5 : Vec F S1x1 .f32) : Vec F S1x128x256 .f32 :=
  View.canon [⟨rO, k0_pay1 (k0_pay2 (View.ld x0 rE) (View.ld x1 rJ) (View.ld x2 rW) (View.ld x3 rB) (View.ld x4 rU) (View.ld x5 rC))⟩]

/-- The one store covers the whole staging buffer. -/
theorem coverTile (p0 : Vec F S1x128x256 .f32) (y : S1x128x256.Idx) :
    ∃ pc ∈ ([⟨rO, p0⟩] : List (View.Piece (Elt F) S1x128x256 .f32)), y ∈ pc.1.set :=
  View.cover_of_tiled [⟨rO, p0⟩] S1x128x256.size (by rfl) y

/-! ## The body's triple -/

set_option maxHeartbeats 1000000 in
/-- The kernel body on whole staging buffers — the inputs' at contents `xW`, the output's at anything — runs to the
    end leaving the inputs' as they were and the output's at `outTile` of them. -/
theorem sound_kernel (c : Dev nD) (E : Set ℕ) (i : grid0.Coords)
    (arg3 : Memref sig .tc .vmem S1x128x16 .f32) (harg3 : arg3.IsWhole) (arg4 : Memref sig .tc .vmem S1x256x16 .f32) (harg4 : arg4.IsWhole)
    (arg5 : Memref sig .tc .vmem S32x32 .f32) (harg5 : arg5.IsWhole) (arg6 : Memref sig .tc .vmem S1x32 .f32) (harg6 : arg6.IsWhole)
    (arg7 : Memref sig .tc .vmem S32x1 .f32) (harg7 : arg7.IsWhole) (arg8 : Memref sig .tc .vmem S1x1 .f32) (harg8 : arg8.IsWhole)
    (arg9 : Memref sig .tc .vmem S1x128x256 .f32) (harg9 : arg9.IsWhole)
    (x0 : Vec F S1x128x16 .f32) (x1 : Vec F S1x256x16 .f32) (x2 : Vec F S32x32 .f32) (x3 : Vec F S1x32 .f32)
    (x4 : Vec F S32x1 .f32) (x5 : Vec F S1x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare (outTile x0 x1 x2 x3 x4 x5)) -∗ K ⟨⟩))
      ⊢ wp frame (wpE (defs₀ (F := F)) Variants.none c none) E (cc0__gnn_kernel i arg3 harg3 arg4 harg4 arg5 harg5 arg6 harg6 arg7 harg7 arg8 harg8 arg9 harg9) K := by
  simp only [cc0__gnn_kernel_eq_skeleton]; unfold cc0__gnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverTile _)

/-! ## The proof data of the kernel call

The node embeddings are read through two windows (row tiles and column tiles of the same array), so the array's
full share is dealt between them, half each; every other array is held whole. -/

/-- On device `c`: the arrays as the call finds them; after the body at point `t` each input's staging buffer at its
    block and the output's at `outTile` of the input blocks; nothing carried between points besides the device's
    other scoped buffers; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outTile (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = outTile (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d

/-! ## The body obligation, at a generic grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' staging buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.KernelRun.lean ====
/-
  The launch of `Kernel`'s one kernel call and the program's frame: the windows' arrays dealt out at their shares
  (the node embeddings, read through two windows, at half a share each), the run of the whole grid, and from it that
  the program terminates, faults nowhere and leaves its argument arrays as launched.
-/
import proofs.«104925_j59760174957314_1_alg».proof.Proof.KernelBody
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Dealing the arrays to the windows -/

/-- The distinct buffers behind the windows' arrays, one by one. -/
theorem arrBufs_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_arg0) ↦{fullShare} Vc main_arg0) ∗ (((c : Thread nD τ).loc main_arg1) ↦{fullShare} Vc main_arg1)
          ∗ (((c : Thread nD τ).loc main_v0) ↦{fullShare} Vc main_v0) ∗ (((c : Thread nD τ).loc main_arg3) ↦{fullShare} Vc main_arg3)
          ∗ (((c : Thread nD τ).loc main_v1) ↦{fullShare} Vc main_v1) ∗ (((c : Thread nD τ).loc main_v2) ↦{fullShare} Vc main_v2)) := by
  unfold Pipeline.arrBufs
  exact bigSep_eq_bigSepL_of_eq [main_arg0, main_arg1, main_v0, main_arg3, main_v1, main_v2] (by decide) (by decide) _

/-- The windows' arrays at their shares, one by one: the node embeddings appear twice, at the two halves. -/
theorem arrays_eq (c : Dev nD) (Vc : (b : Ref sig .tc) → Buf (Elt F) ((c : Thread nD τ).loc b)) :
    ((dats m 0 c).arrays (fun w => Vc (Pipeline.arrRef spec0 w)) : sProp 𝕄)
      = iprop((((c : Thread nD τ).loc main_arg0) ↦{fullShare.left} Vc main_arg0) ∗ (((c : Thread nD τ).loc main_arg0) ↦{fullShare.right} Vc main_arg0)
          ∗ (((c : Thread nD τ).loc main_arg1) ↦{fullShare} Vc main_arg1) ∗ (((c : Thread nD τ).loc main_v0) ↦{fullShare} Vc main_v0)
          ∗ (((c : Thread nD τ).loc main_arg3) ↦{fullShare} Vc main_arg3) ∗ (((c : Thread nD τ).loc main_v1) ↦{fullShare} Vc main_v1)
          ∗ (((c : Thread nD τ).loc main_v2) ↦{fullShare} Vc main_v2)) := by
  unfold Dat.arrays
  rw [bigSep_W0]
  simp only [(arr_whole0 0).set_eq_univ, (arr_whole0 2).set_eq_univ, (arr_whole0 3).set_eq_univ,
    (arr_whole0 4).set_eq_univ, (arr_whole0 5).set_eq_univ, (arr_whole0 6).set_eq_univ]
  rfl

/-- The buffers behind the windows' arrays, each held whole, make the windows' arrays at their shares: the node
    embeddings' full share is halved between the row-tile and the column-tile window. -/
theorem hsplit_at (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      ⊢ (dats m 0 c).arrays (fun w => Vc (Pipeline.arrRef spec0 w)) := by
  rw [arrBufs_eq, arrays_eq]
  iintro ⟨H0, H1, H2, H3, H4, H5⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  isplitl [H3]; · iexact H3
  isplitl [H4]; · iexact H4
  iexact H5

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) :=
  hsplit_at m c (V m c)

/-! ## The run and the frame -/

theorem Φ_eq (c : Dev nD) (t : Fin (cfg0.N + 1)) : (dats m 0 c).Φ t
    = Pipeline.scopedRest (Ix := Unit) (Name := ℕ) (U := UR sig nD τ) (Lvl := ℕ) (Val := Elt F) spec0 c := by dsimp only [dats]

set_option backward.isDefEq.respectTransparency.types false in
/-- From any memory with zero counters every weakly fair execution of the program terminates, and every final state has
    every window's array at what the write-backs leave of it and every other unscoped buffer as the kernel call found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr [H]; · iempintro
      iexact H)
    (hin := fun c => by
      rw [Φ_eq]
      iintro ⟨-, H⟩
      iexact H)
    (hout := fun c => by
      rw [Φ_eq]
      iintro H
      isplitr [H]; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The program runs to the end and leaves its five argument arrays as launched: the three that windows stage
    (embeddings, `W1`, `W2`) are inputs, never written back; the two bias vectors are read only by the reshapes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c)⟩) (run_main m ρ)

end Cert.Kernel.Fr

end
-- ==== Proof.KernelIdealBody.lean ====
/-
  The kernel body of `KernelIdeal` at one grid point: the program up to the kernel call, each window's block of its
  array, what the body leaves in the output tile's staging buffer, the body's triple, and the proof data of the call.
  A grid point is (graph, row tile of 128 nodes, column tile of 256 nodes); the body loads the two embedding tiles and
  the four parameter arrays whole and stores the 128 × 256 tile of pair scores.
-/
import proofs.«104925_j59760174957314_1_alg».proof.Proof.Gen.KernelIdeal.Launch
import proofs.«104925_j59760174957314_1_alg».proof.Proof.Gen.KernelIdeal.Skeleton
import proofs.«104925_j59760174957314_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel call

The program reshapes the two bias vectors (`b1` to a row, `b2` to a 1×1 matrix) and then calls the kernel. -/

/-- The device's buffers when the kernel call is entered: the launch memory after the two reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the two reshapes followed by the kernel call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the kernel call writes `main_arg0`: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the kernel call writes `main_arg1`: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the kernel call writes `main_arg2`: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the kernel call writes `main_arg3`: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the kernel call writes `main_arg4`: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block of its array at grid point `t`, the array as the kernel call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block of the array at every grid point, whether the point
    fetches it or the block index has not moved since the last fetch. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block of the array at every grid point, whether the point
    fetches it or the block index has not moved since the last fetch. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block of the array at every grid point, whether the point
    fetches it or the block index has not moved since the last fetch. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block of the array at every grid point, whether the point
    fetches it or the block index has not moved since the last fetch. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block of the array at every grid point, whether the point
    fetches it or the block index has not moved since the last fetch. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block of the array at every grid point, whether the point
    fetches it or the block index has not moved since the last fetch. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store take a staging buffer whole -/

abbrev rE : Rect S1x128x16 := Rect.unit (s := S1x128x16) ![0, 0, 0] S1x128x16.size inb_S1x128x16_S1x128x16_0_0_0
abbrev rJ : Rect S1x256x16 := Rect.unit (s := S1x256x16) ![0, 0, 0] S1x256x16.size inb_S1x256x16_S1x256x16_0_0_0
abbrev rW : Rect S32x32 := Rect.unit (s := S32x32) ![0, 0] S32x32.size inb_S32x32_S32x32_0_0
abbrev rB : Rect S1x32 := Rect.unit (s := S1x32) ![0, 0] S1x32.size inb_S1x32_S1x32_0_0
abbrev rU : Rect S32x1 := Rect.unit (s := S32x1) ![0, 0] S32x1.size inb_S32x1_S32x1_0_0
abbrev rC : Rect S1x1 := Rect.unit (s := S1x1) ![0, 0] S1x1.size inb_S1x1_S1x1_0_0
abbrev rO : Rect S1x128x256 := Rect.unit (s := S1x128x256) ![0, 0, 0] S1x128x256.size inb_S1x128x256_S1x128x256_0_0_0

/-- What the body leaves in the output window's staging buffer, from the six input blocks: its one store, of the
    tile of edge probabilities computed from the loads. -/
def outTile (x0 : Vec F S1x128x16 .f32) (x1 : Vec F S1x256x16 .f32) (x2 : Vec F S32x32 .f32) (x3 : Vec F S1x32 .f32)
    (x4 : Vec F S32x1 .f32) (x5 : Vec F S1x1 .f32) : Vec F S1x128x256 .f32 :=
  View.canon [⟨rO, k0_pay1 (k0_pay2 (View.ld x0 rE) (View.ld x1 rJ) (View.ld x2 rW) (View.ld x3 rB) (View.ld x4 rU) (View.ld x5 rC))⟩]

/-- The one store covers the whole staging buffer. -/
theorem coverTile (p0 : Vec F S1x128x256 .f32) (y : S1x128x256.Idx) :
    ∃ pc ∈ ([⟨rO, p0⟩] : List (View.Piece (Elt F) S1x128x256 .f32)), y ∈ pc.1.set :=
  View.cover_of_tiled [⟨rO, p0⟩] S1x128x256.size (by rfl) y

/-! ## The body's triple -/

set_option maxHeartbeats 1000000 in
/-- The kernel body on whole staging buffers — the inputs' at contents `xW`, the output's at anything — runs to the
    end leaving the inputs' as they were and the output's at `outTile` of them. -/
theorem sound_kernel (c : Dev nD) (E : Set ℕ) (i : grid0.Coords)
    (arg3 : Memref sig .tc .vmem S1x128x16 .f32) (harg3 : arg3.IsWhole) (arg4 : Memref sig .tc .vmem S1x256x16 .f32) (harg4 : arg4.IsWhole)
    (arg5 : Memref sig .tc .vmem S32x32 .f32) (harg5 : arg5.IsWhole) (arg6 : Memref sig .tc .vmem S1x32 .f32) (harg6 : arg6.IsWhole)
    (arg7 : Memref sig .tc .vmem S32x1 .f32) (harg7 : arg7.IsWhole) (arg8 : Memref sig .tc .vmem S1x1 .f32) (harg8 : arg8.IsWhole)
    (arg9 : Memref sig .tc .vmem S1x128x256 .f32) (harg9 : arg9.IsWhole)
    (x0 : Vec F S1x128x16 .f32) (x1 : Vec F S1x256x16 .f32) (x2 : Vec F S32x32 .f32) (x3 : Vec F S1x32 .f32)
    (x4 : Vec F S32x1 .f32) (x5 : Vec F S1x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare (outTile x0 x1 x2 x3 x4 x5)) -∗ K ⟨⟩))
      ⊢ wp frame (wpE (defs₀ (F := F)) Variants.none c none) E (cc0__gnn_kernel i arg3 harg3 arg4 harg4 arg5 harg5 arg6 harg6 arg7 harg7 arg8 harg8 arg9 harg9) K := by
  simp only [cc0__gnn_kernel_eq_skeleton]; unfold cc0__gnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverTile _)

/-! ## The proof data of the kernel call

The node embeddings are read through two windows (row tiles and column tiles of the same array), so the array's
full share is dealt between them, half each; every other array is held whole. -/

/-- On device `c`: the arrays as the call finds them; after the body at point `t` each input's staging buffer at its
    block and the output's at `outTile` of the input blocks; nothing carried between points besides the device's
    other scoped buffers; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outTile (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = outTile (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d

/-! ## The body obligation, at a generic grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' staging buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.KernelIdealRun.lean ====
/-
  The launch of `KernelIdeal`'s one kernel call and the program's frame: the windows' arrays dealt out at their shares
  (the node embeddings, read through two windows, at half a share each), the run of the whole grid, and from it that
  the program terminates, faults nowhere and leaves its argument arrays as launched.
-/
import proofs.«104925_j59760174957314_1_alg».proof.Proof.KernelIdealBody
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Dealing the arrays to the windows -/

/-- The distinct buffers behind the windows' arrays, one by one. -/
theorem arrBufs_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_arg0) ↦{fullShare} Vc main_arg0) ∗ (((c : Thread nD τ).loc main_arg1) ↦{fullShare} Vc main_arg1)
          ∗ (((c : Thread nD τ).loc main_v0) ↦{fullShare} Vc main_v0) ∗ (((c : Thread nD τ).loc main_arg3) ↦{fullShare} Vc main_arg3)
          ∗ (((c : Thread nD τ).loc main_v1) ↦{fullShare} Vc main_v1) ∗ (((c : Thread nD τ).loc main_v2) ↦{fullShare} Vc main_v2)) := by
  unfold Pipeline.arrBufs
  exact bigSep_eq_bigSepL_of_eq [main_arg0, main_arg1, main_v0, main_arg3, main_v1, main_v2] (by decide) (by decide) _

/-- The windows' arrays at their shares, one by one: the node embeddings appear twice, at the two halves. -/
theorem arrays_eq (c : Dev nD) (Vc : (b : Ref sig .tc) → Buf (Elt F) ((c : Thread nD τ).loc b)) :
    ((dats m 0 c).arrays (fun w => Vc (Pipeline.arrRef spec0 w)) : sProp 𝕄)
      = iprop((((c : Thread nD τ).loc main_arg0) ↦{fullShare.left} Vc main_arg0) ∗ (((c : Thread nD τ).loc main_arg0) ↦{fullShare.right} Vc main_arg0)
          ∗ (((c : Thread nD τ).loc main_arg1) ↦{fullShare} Vc main_arg1) ∗ (((c : Thread nD τ).loc main_v0) ↦{fullShare} Vc main_v0)
          ∗ (((c : Thread nD τ).loc main_arg3) ↦{fullShare} Vc main_arg3) ∗ (((c : Thread nD τ).loc main_v1) ↦{fullShare} Vc main_v1)
          ∗ (((c : Thread nD τ).loc main_v2) ↦{fullShare} Vc main_v2)) := by
  unfold Dat.arrays
  rw [bigSep_W0]
  simp only [(arr_whole0 0).set_eq_univ, (arr_whole0 2).set_eq_univ, (arr_whole0 3).set_eq_univ,
    (arr_whole0 4).set_eq_univ, (arr_whole0 5).set_eq_univ, (arr_whole0 6).set_eq_univ]
  rfl

/-- The buffers behind the windows' arrays, each held whole, make the windows' arrays at their shares: the node
    embeddings' full share is halved between the row-tile and the column-tile window. -/
theorem hsplit_at (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      ⊢ (dats m 0 c).arrays (fun w => Vc (Pipeline.arrRef spec0 w)) := by
  rw [arrBufs_eq, arrays_eq]
  iintro ⟨H0, H1, H2, H3, H4, H5⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  isplitl [H3]; · iexact H3
  isplitl [H4]; · iexact H4
  iexact H5

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) :=
  hsplit_at m c (V m c)

/-! ## The run and the frame -/

theorem Φ_eq (c : Dev nD) (t : Fin (cfg0.N + 1)) : (dats m 0 c).Φ t
    = Pipeline.scopedRest (Ix := Unit) (Name := ℕ) (U := UR sig nD τ) (Lvl := ℕ) (Val := Elt F) spec0 c := by dsimp only [dats]

set_option backward.isDefEq.respectTransparency.types false in
/-- From any memory with zero counters every weakly fair execution of the program terminates, and every final state has
    every window's array at what the write-backs leave of it and every other unscoped buffer as the kernel call found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr [H]; · iempintro
      iexact H)
    (hin := fun c => by
      rw [Φ_eq]
      iintro ⟨-, H⟩
      iexact H)
    (hout := fun c => by
      rw [Φ_eq]
      iintro H
      isplitr [H]; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The program runs to the end and leaves its five argument arrays as launched: the three that windows stage
    (embeddings, `W1`, `W2`) are inputs, never written back; the two bias vectors are read only by the reshapes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c)⟩) (run_main m ρ)

end Cert.KernelIdeal.Fr

end
-- ==== Proof.LibKeepdims.lean ====
/-
  Reading the pieces of a softmax over a rank-3 array at an index, for any extents `a × b × c`.

  A softmax along an axis takes a maximum and a sum along that axis, puts the reduced axis back with extent one
  ("keepdims") and broadcasts it over the array again.  The lemmas here read each of those steps at an index written by
  its coordinates:

  * an `[a, b]` array cast to `[a, b, 1]` and an `[a, b, 1]` array broadcast to `[a, b, c]` (the last axis reduced);
  * an `[a, c]` array cast to `[a, 1, c]` and an `[a, 1, c]` array broadcast to `[a, b, c]` (the middle axis reduced);
  * the index over `(i, j)` with coordinate `k` inserted on the last axis is `(i, j, k)`, and over `(i, k)` with `j`
    inserted on the middle axis it is `(i, j, k)`;
  * hence, on the extended reals, a vector maximum along the last or the middle axis is the fold of `max` over that
    axis's coordinates, a vector sum the sum over them, and the host's maximum along the last axis the same fold.
-/
import Idealize.ShloMosaic.PureOps.Ideal.Laws
import Idealize.ShloMosaic.Lib.ValueIdx
import Idealize.ShloMosaic.Lib.Pipeline.Value

noncomputable section

namespace Idealize.ShloMosaic.Keepdims

open Idealize.ShloMosaic Idealize.ShloMosaic.ValueIdx

variable {α : Type} {a b c : ℕ}

/-! ## The reduced axis put back with extent one, and broadcast again -/

/-- An `[a, b]` array cast to `[a, b, 1]` reads, at `(i, j, u)`, the operand at `(i, j)`. -/
theorem shapeCast_ab_ab1_apply (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show 0 = if (1 : ℕ) = 1 then 0 else k.val
    rw [if_pos rfl]

/-- An `[a, c]` array cast to `[a, 1, c]` reads, at `(i, u, k)`, the operand at `(i, k)`. -/
theorem shapeCast_ac_a1c_apply (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]
  | ⟨2, _⟩ =>
    show k.val = if c = 1 then 0 else k.val
    split
    · have := k.isLt; omega
    · rfl

/-! ## The index with the reduced coordinate inserted -/

/-- Over `(i, j)`, with `k` inserted on the last axis: `(i, j, k)`. -/
theorem lift_last (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Over `(i, k)`, with `j` inserted on the middle axis: `(i, j, k)`. -/
theorem lift_middle (h : (⟨3, ![a, b, c]⟩ : Shape).Reduces [1] ⟨2, ![a, c]⟩) (i : Fin a) (j : Fin b) (k : Fin c) :
    h.lift (ix2 i k) j = ix3 i j k := by
  funext ax
  apply Fin.ext
  match ax with
  | ⟨0, _⟩ => rfl
  | ⟨1, _⟩ => rfl
  | ⟨2, _⟩ => rfl

/-! ## Maxima and sums along one axis, on the extended reals -/

variable {φ : FTy}

/-- A vector maximum along the last axis, at `(i, j)`: the fold of `max` from the accumulator's value over `k`. -/
theorem multiReduction_max_last (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) fun k => src (ix3 i j k) := by
  refine (Ideal.multiReduction_maximumf_single src acc h hφ hacc (ix2 i j)).trans ?_
  refine congrArg (Finset.fold max (Ideal.ofBits φ acc) · Finset.univ) (funext fun k => ?_)
  exact congrArg src (lift_last h i j k)

/-- A vector sum along the last axis, at `(i, j)`: the sum over `k`. -/
theorem multiReduction_add_last (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  exact Finset.sum_congr rfl fun k _ => congrArg src (lift_last h i j k)

/-- A vector maximum along the middle axis, at `(i, k)`: the fold of `max` from the accumulator's value over `j`. -/
theorem multiReduction_max_middle (src : FVec Ideal ⟨3, ![a, b, c]⟩ φ) (acc : BitVec φ.bits)
    (h : (⟨3, ![a, b, c]⟩ : Shape).Reduces [1] ⟨2, ![a, c]⟩) (hφ : FKind.Formats φ) (hacc : acc = FKind.maximumf.neutral φ hφ)
    (i : Fin a) (k : Fin c) :
    multiReduction .maximumf [1] ⟨2, ![a, c]⟩ src acc h hφ hacc (ix2 i k)
      = (Finset.univ : Finset (Fin b)).fold max (Ideal.ofBits φ acc) fun j => src (ix3 i j k) := by
  refine (Ideal.multiReduction_maximumf_single src acc h hφ hacc (ix2 i k)).trans ?_
  refine congrArg (Finset.fold max (Ideal.ofBits φ acc) · Finset.univ) (funext fun j => ?_)
  exact congrArg src (lift_middle h i j k)

/-- A vector sum along the middle axis, at `(i, k)`: the sum over `j`. -/
theorem multiReduction_add_middle (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) := by
  refine (Ideal.multiReduction_add_single src acc h hφ hacc (ix2 i k)).trans ?_
  exact Finset.sum_congr rfl fun j _ => congrArg src (lift_middle h i j k)

/-- The host's maximum along the last axis, at `(i, j)`: the fold of `max` from the initial value over `k`. -/
theorem hostReduce_max_last {u : Shape} (x : (⟨3, ![a, b, c]⟩ : Shape).Idx → Ideal φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.maximumf (F := Ideal) (φ := φ)) x init h' hu (ix2 i j)
      = (Finset.univ : Finset (Fin c)).fold max (init (Shape.Idx.first hu)) fun k => x (ix3 i j k) := by
  refine (Host.reduce_eq_fold_single (FloatOps.maximumf (F := Ideal) (φ := φ)) x init h' h hu (ix2 i j)).trans ?_
  refine congrArg (Finset.fold max (init (Shape.Idx.first hu)) · Finset.univ) (funext fun k => ?_)
  exact congrArg x (lift_last h i j k)

end Idealize.ShloMosaic.Keepdims

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibLeadingAxis.lean ====
/-
  Reading layout steps around a LEADING axis at an index written by its coordinates, for any extents.

  A kernel that keeps a small axis in front — a per-unit weight or bias `[a]` or `[a, 1]` spread over an `[a, b, c]`
  array, and a sum over that leading axis — meets these steps:

  * a column `[a, 1]` or a vector `[a]` cast to `[a, 1, 1]`, a column cast to the vector, and `[a, 1, 1]` broadcast to
    `[a, b, c]`: each reads the operand at the leading coordinate;
  * the index over `(j, k)` with coordinate `i` inserted on the first axis is `(i, j, k)`; hence, on the extended
    reals, a vector sum along the FIRST axis of an `[a, b, c]` array is the sum over `i` of the array at `(i, j, k)`;
  * the one entry of a `[1, 1]` array taken out at position (0, 0).
-/
import Idealize.ShloMosaic.PureOps.Ideal.Laws
import Idealize.ShloMosaic.Lib.ValueIdx
import Idealize.ShloMosaic.Lib.Pipeline.Value

noncomputable section

namespace Cert.LibLeadingAxis

open Idealize.ShloMosaic Idealize.ShloMosaic.ValueIdx

variable {α : Type} {a b c : ℕ}

/-- A column `[a, 1]` cast to `[a, 1, 1]` reads, at `(i, u, v)`, the column at `(i, 0)`. -/
theorem shapeCast_a1_a11_apply (x : (⟨2, ![a, 1]⟩ : Shape).Idx → α)
    (h : (⟨2, ![a, 1]⟩ : Shape).ShapeCasts ⟨3, ![a, 1, 1]⟩) (i : Fin a) (u v : Fin 1) :
    shapeCast ⟨3, ![a, 1, 1]⟩ x h (ix3 i u v) = x (ix2 i (0 : Fin 1)) :=
  shapeCast_apply x h _ _ (by
    have hu : u.val = 0 := by omega
    have hv : v.val = 0 := by omega
    rw [Shape.rowMajor_val_three, Shape.rowMajor_val_two]
    show i.val * 1 + 0 = (i.val * 1 + u.val) * 1 + v.val
    omega)

/-- A vector `[a]` cast to `[a, 1, 1]` reads, at `(i, u, v)`, the vector at `i`. -/
theorem shapeCast_a_a11_apply (x : (⟨1, ![a]⟩ : Shape).Idx → α)
    (h : (⟨1, ![a]⟩ : Shape).ShapeCasts ⟨3, ![a, 1, 1]⟩) (i : Fin a) (u v : Fin 1) :
    shapeCast ⟨3, ![a, 1, 1]⟩ x h (ix3 i u v) = x (ix1 i) :=
  shapeCast_apply x h _ _ (by
    have hu : u.val = 0 := by omega
    have hv : v.val = 0 := by omega
    rw [Shape.rowMajor_val_three, Shape.rowMajor_val_one]
    show i.val = (i.val * 1 + u.val) * 1 + v.val
    omega)

/-- A column `[a, 1]` cast to the vector `[a]` reads, at `i`, the column at `(i, 0)`. -/
theorem shapeCast_a1_a_apply (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a, 1, 1]` array broadcast to `[a, b, c]` reads, at `(i, j, k)`, the operand at `(i, 0, 0)`. -/
theorem broadcastTo_a11_abc_apply (v : (⟨3, ![a, 1, 1]⟩ : Shape).Idx → α)
    (h : (⟨3, ![a, 1, 1]⟩ : Shape).Broadcasts ⟨3, ![a, b, c]⟩) (i : Fin a) (j : Fin b) (k : Fin c) :
    broadcastTo ⟨3, ![a, b, c]⟩ v h (ix3 i j k) = v (ix3 i (0 : Fin 1) (0 : Fin 1)) := by
  refine broadcastTo_apply v h (ix3 i j k) (ix3 i (0 : Fin 1) (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]
  | ⟨2, _⟩ =>
    show 0 = if (1 : ℕ) = 1 then 0 else k.val
    rw [if_pos rfl]

/-- Over `(j, k)`, with `i` inserted on the first axis: `(i, j, k)`. -/
theorem lift_first (h : (⟨3, ![a, b, c]⟩ : Shape).Reduces [0] ⟨2, ![b, c]⟩) (j : Fin b) (k : Fin c) (i : Fin a) :
    h.lift (ix2 j k) i = ix3 i j k := by
  funext ax
  apply Fin.ext
  match ax with
  | ⟨0, _⟩ => rfl
  | ⟨1, _⟩ => rfl
  | ⟨2, _⟩ => rfl

variable {φ : FTy}

/-- A vector sum along the first axis, at `(j, k)`: the sum over `i` of the array at `(i, j, k)`. -/
theorem multiReduction_add_first (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (j : Fin b) (k : Fin c) :
    multiReduction .add [0] ⟨2, ![b, c]⟩ src acc h hφ hacc (ix2 j k) = ∑ i : Fin a, src (ix3 i j k) := by
  refine (Ideal.multiReduction_add_single src acc h hφ hacc (ix2 j k)).trans ?_
  exact Finset.sum_congr rfl fun i _ => congrArg src (lift_first h j k i)

/-- The one entry of a `[1, 1]` array taken out at position (0, 0). -/
theorem extractAt_11_apply (x : (⟨2, ![1, 1]⟩ : Shape).Idx → α) (h : ∀ ax, (![0, 0] : Fin 2 → ℕ) ax < (⟨2, ![1, 1]⟩ : Shape).size ax) :
    extractAt ![0, 0] x h = x (ix2 (0 : Fin 1) (0 : Fin 1)) := by
  unfold extractAt
  refine congrArg x (funext fun ax => Fin.ext ?_)
  match ax with
  | ⟨0, _⟩ => rfl
  | ⟨1, _⟩ => rfl

end Cert.LibLeadingAxis

end
-- ==== Proof.Tile.lean ====
/-
  The kernel body's stored tile at an index.

  At a grid point the body holds a 128-row tile `x0` and a 256-row tile `x1` of the node embeddings, the whole `W1`
  (`x2`), the first bias as a row (`x3`), `W2` (`x4`) and the second bias as a 1×1 matrix (`x5`).  Entry (p, q) of the
  tile it stores is the logistic function of  Σ_u relu (x0[p,:]·W1[0:16,u] + x1[q,:]·W1[16:32,u] + x3[0,u])·x4[u,0] + x5[0,0]:
  the two products are taken with the hidden axis last and then transposed so that the hidden axis leads, the three
  summands are spread over the [32, 128, 256] array by unit axes, and the sum over the hidden axis is the sum over the
  leading axis.  Rounding the products' factors is the identity on the extended reals.
-/
import proofs.«104925_j59760174957314_1_alg».proof.Proof.KernelIdealBody
import proofs.«104925_j59760174957314_1_alg».proof.Proof.LibKeepdims
import proofs.«104925_j59760174957314_1_alg».proof.Proof.LibRowMax
import proofs.«104925_j59760174957314_1_alg».proof.Proof.LibLeadingAxis
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Idealize.ShloMosaic Idealize.ShloMosaic.ValueIdx Cert.KernelIdeal Cert.KernelIdeal.Gen
open Idealize.ShloMosaic.Keepdims Cert.LibRowMax Cert.LibLeadingAxis

/-- Entry (p, q) of the tile, from the six loaded blocks. -/
def entry (x0 : Vec Ideal S1x128x16 .f32) (x1 : Vec Ideal S1x256x16 .f32) (x2 : Vec Ideal S32x32 .f32) (x3 : Vec Ideal S1x32 .f32)
    (x4 : Vec Ideal S32x1 .f32) (x5 : Vec Ideal S1x1 .f32) (p : Fin 128) (q : Fin 256) : EReal :=
  Ideal.logistic ((∑ u : Fin 32,
      max ((∑ k : Fin 16, x0 (ix3 (0 : Fin 1) p k) * x2 (ix2 (⟨k.val, by have := k.isLt; omega⟩ : Fin 32) u))
            + (∑ k : Fin 16, x1 (ix3 (0 : Fin 1) q k) * x2 (ix2 (⟨16 + k.val, by have := k.isLt; omega⟩ : Fin 32) u))
            + x3 (ix2 (0 : Fin 1) u))
          (Ideal.ofBits .f32 0x00000000#32)
        * x4 (ix2 u (0 : Fin 1)))
    + x5 (ix2 (0 : Fin 1) (0 : Fin 1)))

/-- The computed 128 × 256 value at (p, q). -/
theorem pay2_apply (x0 : Vec Ideal S1x128x16 .f32) (x1 : Vec Ideal S1x256x16 .f32) (x2 : Vec Ideal S32x32 .f32) (x3 : Vec Ideal S1x32 .f32)
    (x4 : Vec Ideal S32x1 .f32) (x5 : Vec Ideal S1x1 .f32) (p : Fin 128) (q : Fin 256) :
    k0_pay2 (F := Ideal) x0 x1 x2 x3 x4 x5 (ix2 p q) = entry x0 x1 x2 x3 x4 x5 p q := by
  simp only [k0_pay2]
  unfold entry
  show Ideal.logistic (_ + _) = _
  refine congrArg Ideal.logistic ?_
  refine congrArg₂ (· + ·) ?_ ?_
  · -- the sum over the hidden axis, leading
    refine (multiReduction_add_first _ _ _ _ _ p q).trans ?_
    refine Finset.sum_congr rfl fun u _ => ?_
    show max (_ + _ + _) _ * _ = _
    refine congrArg₂ (· * ·) (congrArg₂ max (congrArg₂ (· + ·) (congrArg₂ (· + ·) ?_ ?_) ?_) rfl) ?_
    · -- the row node's projection, transposed and spread over the columns
      refine (broadcastTo_ab1_abc_apply _ _ u p q).trans ?_
      refine (shapeCast_ab_ab1_apply _ _ u p 0).trans ?_
      refine (transpose_ix2_apply _ _ u p).trans ?_
      refine (matmul_plain_apply _ none _ _ p u).trans ?_
      refine Finset.sum_congr rfl fun k _ => ?_
      refine congrArg₂ (· * ·) ?_ ?_
      · exact shapeCast_1ab_ab_apply x0 _ p k
      · exact slice2_axis0_apply 0 _ _ k u _ (by simp)
    · -- the column node's projection, transposed and spread over the rows
      refine (broadcastTo_a1c_abc_apply _ _ u p q).trans ?_
      refine (shapeCast_ac_a1c_apply _ _ u 0 q).trans ?_
      refine (transpose_ix2_apply _ _ u q).trans ?_
      refine (matmul_plain_apply _ none _ _ q u).trans ?_
      refine Finset.sum_congr rfl fun k _ => ?_
      refine congrArg₂ (· * ·) ?_ ?_
      · exact shapeCast_1ab_ab_apply x1 _ q k
      · exact slice2_axis0_apply 16 _ _ k u _ rfl
    · -- the first bias, a row turned into a column and spread over the tile
      refine (broadcastTo_a11_abc_apply _ _ u p q).trans ?_
      refine (shapeCast_a1_a11_apply _ _ u 0 0).trans ?_
      refine (transpose_ix2_apply _ _ u 0).trans ?_
      exact congrFun (shapeCast_self x3 _) (ix2 (0 : Fin 1) u)
    · -- the second layer's weights, a column spread over the tile
      refine (broadcastTo_a11_abc_apply _ _ u p q).trans ?_
      refine (shapeCast_a_a11_apply _ _ u 0 0).trans ?_
      exact shapeCast_a1_a_apply x4 _ u
  · -- the second bias, one entry spread over the tile
    exact extractAt_11_apply x5 _

theorem hz3 : (![0, 0, 0] : Fin 3 → ℕ) = fun _ => 0 := by
  funext a; match a with | ⟨0, _⟩ => rfl | ⟨1, _⟩ => rfl | ⟨2, _⟩ => rfl
theorem hz2 : (![0, 0] : Fin 2 → ℕ) = fun _ => 0 := by
  funext a; match a with | ⟨0, _⟩ => rfl | ⟨1, _⟩ => rfl

/-- The stored tile at (0, p, q): the body's loads take the blocks whole and its one store covers the buffer, so the
    buffer holds the computed value with a unit axis put in front. -/
theorem outTile_apply (x0 : Vec Ideal S1x128x16 .f32) (x1 : Vec Ideal S1x256x16 .f32) (x2 : Vec Ideal S32x32 .f32) (x3 : Vec Ideal S1x32 .f32)
    (x4 : Vec Ideal S32x1 .f32) (x5 : Vec Ideal S1x1 .f32) (p : Fin 128) (q : Fin 256) :
    Fr.outTile (F := Ideal) x0 x1 x2 x3 x4 x5 (ix3 (0 : Fin 1) p q) = entry x0 x1 x2 x3 x4 x5 p q := by
  unfold Fr.outTile
  rw [View.canon_unit_zero hz3]
  simp only [View.ld_unit_zero (S := S1x128x16) hz3, View.ld_unit_zero (S := S1x256x16) hz3, View.ld_unit_zero (S := S32x32) hz2,
    View.ld_unit_zero (S := S1x32) hz2, View.ld_unit_zero (S := S32x1) hz2, View.ld_unit_zero (S := S1x1) hz2]
  unfold k0_pay1
  exact (shapeCast_ab_1ab_apply _ _ 0 p q).trans (pay2_apply x0 x1 x2 x3 x4 x5 p q)

end Cert.KernelIdeal.Tile

end
-- ==== Proof.PairScore.lean ====
/-
  The edge score of a pair of nodes, as one function of the five argument arrays.

  For graph `b` and nodes `i`, `j` the hidden layer of the pair's concatenated embeddings splits into two small
  products, one through the upper half of `W1` for the row node and one through the lower half for the column
  node:  h[b,i,j,u] = relu (emb[b,i,:]·W1[0:16,u] + emb[b,j,:]·W1[16:32,u] + b1[u]).  The score is the logistic
  function of  Σ_u h[b,i,j,u]·W2[u,0] + b2[0].  Everything is read on the extended reals, where a sum over a finite
  index type is order-free; no law beyond that is used, so no finiteness of the inputs is needed.
-/
import Idealize.ShloMosaic.PureOps.Ideal
import Idealize.ShloMosaic.PureOps.Ideal.Laws
import Idealize.ShloMosaic.Lib.ValueIdx

noncomputable section

namespace Cert.PairScore

open Idealize.ShloMosaic Idealize.ShloMosaic.ValueIdx

/-- Node `n` of graph `b` projected onto hidden unit `u` through rows `0 … 15` of `W1` (the row node's half). -/
def projRow (e : (⟨3, ![4, 1024, 16]⟩ : Shape).Idx → EReal) (w1 : (⟨2, ![32, 32]⟩ : Shape).Idx → EReal)
    (b : Fin 4) (n : Fin 1024) (u : Fin 32) : EReal :=
  ∑ k : Fin 16, e (ix3 b n k) * w1 (ix2 (⟨k.val, by have := k.isLt; omega⟩ : Fin 32) u)

/-- The same through rows `16 … 31` of `W1` (the column node's half). -/
def projCol (e : (⟨3, ![4, 1024, 16]⟩ : Shape).Idx → EReal) (w1 : (⟨2, ![32, 32]⟩ : Shape).Idx → EReal)
    (b : Fin 4) (n : Fin 1024) (u : Fin 32) : EReal :=
  ∑ k : Fin 16, e (ix3 b n k) * w1 (ix2 (⟨16 + k.val, by have := k.isLt; omega⟩ : Fin 32) u)

/-- The pair's logit: the rectified hidden units weighted by `W2`'s one column, plus the output bias. -/
def logit (e : (⟨3, ![4, 1024, 16]⟩ : Shape).Idx → EReal) (w1 : (⟨2, ![32, 32]⟩ : Shape).Idx → EReal)
    (b1 : (⟨1, ![32]⟩ : Shape).Idx → EReal) (w2 : (⟨2, ![32, 1]⟩ : Shape).Idx → EReal) (b2 : (⟨1, ![1]⟩ : Shape).Idx → EReal)
    (b : Fin 4) (i j : Fin 1024) : EReal :=
  (∑ u : Fin 32, max (projRow e w1 b i u + projCol e w1 b j u + b1 (ix1 u)) (Ideal.ofBits .f32 0x00000000#32)
      * w2 (ix2 u (0 : Fin 1))) + b2 (ix1 (0 : Fin 1))

/-- The whole result array: the logistic function of the logit, at every (graph, row node, column node). -/
def score (e : (⟨3, ![4, 1024, 16]⟩ : Shape).Idx → EReal) (w1 : (⟨2, ![32, 32]⟩ : Shape).Idx → EReal)
    (b1 : (⟨1, ![32]⟩ : Shape).Idx → EReal) (w2 : (⟨2, ![32, 1]⟩ : Shape).Idx → EReal) (b2 : (⟨1, ![1]⟩ : Shape).Idx → EReal) :
    (⟨3, ![4, 1024, 1024]⟩ : Shape).Idx → EReal :=
  fun idx => Ideal.logistic (logit e w1 b1 w2 b2 (idx 0) (idx 1) (idx 2))

theorem score_apply (e : (⟨3, ![4, 1024, 16]⟩ : Shape).Idx → EReal) (w1 : (⟨2, ![32, 32]⟩ : Shape).Idx → EReal)
    (b1 : (⟨1, ![32]⟩ : Shape).Idx → EReal) (w2 : (⟨2, ![32, 1]⟩ : Shape).Idx → EReal) (b2 : (⟨1, ![1]⟩ : Shape).Idx → EReal)
    (b : Fin 4) (i j : Fin 1024) :
    score e w1 b1 w2 b2 (ix3 b i j) = Ideal.logistic (logit e w1 b1 w2 b2 b i j) := rfl

/-- The f32 pattern of one denotes the extended real `1`. -/
theorem ofBits_one_f32 : Ideal.ofBits .f32 0x3F800000#32 = 1 := IdealRules.sign_bit.ideal_onePat .f32

end Cert.PairScore

end
-- ==== Proof.Whole.lean ====
/-
  From tiles to the whole array: after the run the kernel's result array holds the pair score at every index.

  Grid point t = (graph b, row tile r, column tile s) writes back the tile of rows 128 r … 128 r + 127 and columns
  256 s … 256 s + 255 of graph b.  Its row-node block is rows 128 r … of graph b of the embeddings, its column-node
  block rows 256 s … of the same graph, and the four parameter blocks are the whole parameter arrays (the two biases
  through the reshapes before the call).  So entry (p, q) of the tile is the pair score at (b, 128 r + p, 256 s + q);
  the 4 × 8 × 4 tiles cover the array.
-/
import proofs.«104925_j59760174957314_1_alg».proof.Proof.KernelIdealRun
import proofs.«104925_j59760174957314_1_alg».proof.Proof.Tile
import proofs.«104925_j59760174957314_1_alg».proof.Proof.PairScore
import Idealize.ShloMosaic.Lib.Pipeline.Value
import Idealize.ShloMosaic.Lib.ValueLayout
import Idealize.ShloMosaic.Lib.StableHlo.Run

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr Cert.KernelIdeal.Tile Cert.PairScore

variable (m : (ℓ : Loc nD τ sig) → Buf (Elt Ideal) ℓ) (ρ : Dev nD → PrngReg)

/-- The pair scores of the argument arrays as launched on device `c`. -/
abbrev scores (c : Dev nD) : S4x1024x1024.Idx → EReal :=
  score (m ((c : Thread nD τ).loc main_arg0)) (m ((c : Thread nD τ).loc main_arg1)) (m ((c : Thread nD τ).loc main_arg2))
    (m ((c : Thread nD τ).loc main_arg3)) (m ((c : Thread nD τ).loc main_arg4))

/-! ## The two reshaped biases as the kernel call finds them -/

theorem V_main_v0 (c : Dev nD) : (V m c main_v0 : S1x32.Idx → EReal)
    = shapeCast S1x32 (m ((c : Thread nD τ).loc main_arg2)) shapeCasts_S32_S1x32 := by
  dsimp only [V, hostOps0]; after_results; rfl

theorem V_main_v1 (c : Dev nD) : (V m c main_v1 : S1x1.Idx → EReal)
    = shapeCast S1x1 (m ((c : Thread nD τ).loc main_arg4)) shapeCasts_S1_S1x1 := by
  dsimp only [V, hostOps0]; after_results; rfl

/-! ## The index maps, decided over the grid -/

/-- The row-node window follows the output's graph and row tile, the column-node window its graph and column tile;
    the parameter windows stay at block zero; the output's block indices range over 4 × 8 × 4. -/
theorem idx_facts : ∀ t : Fin cfg0.N,
    win0_0.index t (0 : Fin 3) = win0_6.index t (0 : Fin 3) ∧ win0_0.index t (1 : Fin 3) = win0_6.index t (1 : Fin 3) ∧ win0_0.index t (2 : Fin 3) = 0
    ∧ win0_1.index t (0 : Fin 3) = win0_6.index t (0 : Fin 3) ∧ win0_1.index t (1 : Fin 3) = win0_6.index t (2 : Fin 3) ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) ≤ 3 ∧ win0_6.index t (1 : Fin 3) ≤ 7 ∧ win0_6.index t (2 : Fin 3) ≤ 3 :=
  (by decide +kernel : ∀ t : Fin grid0.N, _)

/-- Every (graph, row tile, column tile) is some grid point's. -/
theorem idx_onto : ∀ (q0 : Fin 4) (q1 : Fin 8) (q2 : Fin 4), ∃ t : Fin cfg0.N, win0_6.index t = ![q0.val, q1.val, q2.val] :=
  (by decide +kernel : ∀ (q0 : Fin 4) (q1 : Fin 8) (q2 : Fin 4), ∃ t : Fin grid0.N, win0_6.index t = ![q0.val, q1.val, q2.val])

/-! ## What a grid point writes back -/

/-- Grid point `t` writes back block `t` of the pair scores. -/
theorem flushed_eq (c : Dev nD) (t : Fin cfg0.N) :
    (dats m 0 c).flushed 6 t = ((cfg0.win 6).blk t).view.read (Elt Ideal) (scores m c) := by
  obtain ⟨e00, e01, e02, e10, e11, e12, e20, e21, e30, e31, e40, e41, e50, e51, hb0, hb1, hb2⟩ := idx_facts t
  show (cfg0.win 6).cut (grid0.coords t) ((dats m 0 c).after 6 t) = _
  rw [after_6]
  funext y
  obtain ⟨z, p, q, rfl⟩ : ∃ (z : Fin 1) (p : Fin 128) (q : Fin 256), y = ix3 z p q := ⟨y 0, y 1, y 2, eq_ix3 y⟩
  obtain rfl : z = 0 := Subsingleton.elim _ _
  have hp := p.isLt
  have hq := q.isLt
  refine (outTile_apply (iblk m c 0 t) (iblk m c 1 t) (iblk m c 2 t) (iblk m c 3 t) (iblk m c 4 t) (iblk m c 5 t) p q).trans ?_
  show _ = scores m c (((cfg0.win 6).blk t).view.emb (ix3 (0 : Fin 1) p q))
  have hI : ((cfg0.win 6).blk t).view.emb (ix3 (0 : Fin 1) p q)
      = ix3 (⟨win0_6.index t (0 : Fin 3), by omega⟩ : Fin 4) (⟨win0_6.index t (1 : Fin 3) * 128 + p.val, by omega⟩ : Fin 1024)
          (⟨win0_6.index t (2 : Fin 3) * 256 + q.val, by omega⟩ : Fin 1024) := by
    funext a; apply Fin.ext
    match a with
    | ⟨0, _⟩ => show win0_6.index t (0 : Fin 3) * 1 + 1 * 0 = win0_6.index t (0 : Fin 3); omega
    | ⟨1, _⟩ => show win0_6.index t (1 : Fin 3) * 128 + 1 * p.val = win0_6.index t (1 : Fin 3) * 128 + p.val; omega
    | ⟨2, _⟩ => show win0_6.index t (2 : Fin 3) * 256 + 1 * q.val = win0_6.index t (2 : Fin 3) * 256 + q.val; omega
  rw [hI]
  unfold scores
  rw [score_apply]
  unfold entry logit projRow projCol
  have r0 : ∀ k : Fin 16, (iblk m c 0 t : Vec Ideal S1x128x16 .f32) (ix3 (0 : Fin 1) p k)
      = m ((c : Thread nD τ).loc main_arg0) (ix3 (⟨win0_6.index t (0 : Fin 3), by omega⟩ : Fin 4)
          (⟨win0_6.index t (1 : Fin 3) * 128 + p.val, by omega⟩ : Fin 1024) k) := fun k => by
    show V m c main_arg0 (((cfg0.win 0).blk t).view.emb (ix3 (0 : Fin 1) p k)) = _
    rw [V_main_arg0]
    refine congrArg _ (funext fun a => Fin.ext ?_)
    match a with
    | ⟨0, _⟩ => show win0_0.index t (0 : Fin 3) * 1 + 1 * 0 = win0_6.index t (0 : Fin 3); omega
    | ⟨1, _⟩ => show win0_0.index t (1 : Fin 3) * 128 + 1 * p.val = win0_6.index t (1 : Fin 3) * 128 + p.val; omega
    | ⟨2, _⟩ => show win0_0.index t (2 : Fin 3) * 16 + 1 * k.val = k.val; omega
  have r1 : ∀ k : Fin 16, (iblk m c 1 t : Vec Ideal S1x256x16 .f32) (ix3 (0 : Fin 1) q k)
      = m ((c : Thread nD τ).loc main_arg0) (ix3 (⟨win0_6.index t (0 : Fin 3), by omega⟩ : Fin 4)
          (⟨win0_6.index t (2 : Fin 3) * 256 + q.val, by omega⟩ : Fin 1024) k) := fun k => by
    show V m c main_arg0 (((cfg0.win 1).blk t).view.emb (ix3 (0 : Fin 1) q k)) = _
    rw [V_main_arg0]
    refine congrArg _ (funext fun a => Fin.ext ?_)
    match a with
    | ⟨0, _⟩ => show win0_1.index t (0 : Fin 3) * 1 + 1 * 0 = win0_6.index t (0 : Fin 3); omega
    | ⟨1, _⟩ => show win0_1.index t (1 : Fin 3) * 256 + 1 * q.val = win0_6.index t (2 : Fin 3) * 256 + q.val; omega
    | ⟨2, _⟩ => show win0_1.index t (2 : Fin 3) * 16 + 1 * k.val = k.val; omega
  have r2 : ∀ (k u : Fin 32), (iblk m c 2 t : Vec Ideal S32x32 .f32) (ix2 k u) = m ((c : Thread nD τ).loc main_arg1) (ix2 k u) := fun k u => by
    show V m c main_arg1 (((cfg0.win 2).blk t).view.emb (ix2 k u)) = _
    rw [V_main_arg1]
    refine congrArg _ (funext fun a => Fin.ext ?_)
    match a with
    | ⟨0, _⟩ => show win0_2.index t (0 : Fin 2) * 32 + 1 * k.val = k.val; omega
    | ⟨1, _⟩ => show win0_2.index t (1 : Fin 2) * 32 + 1 * u.val = u.val; omega
  have r3 : ∀ u : Fin 32, (iblk m c 3 t : Vec Ideal S1x32 .f32) (ix2 (0 : Fin 1) u) = m ((c : Thread nD τ).loc main_arg2) (ix1 u) := fun u => by
    show V m c main_v0 (((cfg0.win 3).blk t).view.emb (ix2 (0 : Fin 1) u)) = _
    rw [V_main_v0]
    refine Eq.trans (congrArg _ (funext fun a => Fin.ext ?_)) (shapeCast_a_1a_apply _ _ (0 : Fin 1) u)
    match a with
    | ⟨0, _⟩ => show win0_3.index t (0 : Fin 2) * 1 + 1 * 0 = 0; omega
    | ⟨1, _⟩ => show win0_3.index t (1 : Fin 2) * 32 + 1 * u.val = u.val; omega
  have r4 : ∀ u : Fin 32, (iblk m c 4 t : Vec Ideal S32x1 .f32) (ix2 u (0 : Fin 1)) = m ((c : Thread nD τ).loc main_arg3) (ix2 u (0 : Fin 1)) := fun u => by
    show V m c main_arg3 (((cfg0.win 4).blk t).view.emb (ix2 u (0 : Fin 1))) = _
    rw [V_main_arg3]
    refine congrArg _ (funext fun a => Fin.ext ?_)
    match a with
    | ⟨0, _⟩ => show win0_4.index t (0 : Fin 2) * 32 + 1 * u.val = u.val; omega
    | ⟨1, _⟩ => show win0_4.index t (1 : Fin 2) * 1 + 1 * 0 = 0; omega
  have r5 : (iblk m c 5 t : Vec Ideal S1x1 .f32) (ix2 (0 : Fin 1) (0 : Fin 1)) = m ((c : Thread nD τ).loc main_arg4) (ix1 (0 : Fin 1)) := by
    show V m c main_v1 (((cfg0.win 5).blk t).view.emb (ix2 (0 : Fin 1) (0 : Fin 1))) = _
    rw [V_main_v1]
    refine Eq.trans (congrArg _ (funext fun a => Fin.ext ?_)) (shapeCast_a_1a_apply _ _ (0 : Fin 1) (0 : Fin 1))
    match a with
    | ⟨0, _⟩ => show win0_5.index t (0 : Fin 2) * 1 + 1 * 0 = 0; omega
    | ⟨1, _⟩ => show win0_5.index t (1 : Fin 2) * 1 + 1 * 0 = 0; omega
  simp only [r0, r1, r2, r3, r4, r5]

/-! ## The tiles cover the array -/

/-- An index of the array is in point `t`'s block iff each coordinate is in the block's range on its axis. -/
theorem mem_blk (t : Fin cfg0.N) (i : S4x1024x1024.Idx) :
    i ∈ ((cfg0.win 6).blk t).view.set ↔ ∀ a : Fin 3, win0_6.index t a * S1x128x256.size a ≤ (i a).val ∧ (i a).val < win0_6.index t a * S1x128x256.size a + S1x128x256.size a := by
  show i ∈ ((View.whole main_v2).slice (win0_6.rect t)).set ↔ _
  rw [View.set_slice_whole, Rect.mem_set_unit]
  exact Iff.rfl

/-- Index (b, i, j) lies in the tile of graph b, row tile i / 128, column tile j / 256. -/
theorem cover (i : S4x1024x1024.Idx) : ∃ t : Fin cfg0.N, (cfg0.win 6).flush t = true ∧ i ∈ ((cfg0.win 6).blk t).view.set := by
  have hi0 : (i 0).val < 4 := (i 0).isLt
  have hi1 : (i 1).val < 1024 := (i 1).isLt
  have hi2 : (i 2).val < 1024 := (i 2).isLt
  obtain ⟨t, ht⟩ := idx_onto ⟨(i 0).val, hi0⟩ ⟨(i 1).val / 128, by omega⟩ ⟨(i 2).val / 256, by omega⟩
  have q0 : win0_6.index t (0 : Fin 3) = (i 0).val := congrFun ht 0
  have q1 : win0_6.index t (1 : Fin 3) = (i 1).val / 128 := congrFun ht 1
  have q2 : win0_6.index t (2 : Fin 3) = (i 2).val / 256 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 128 ≤ (i 1).val ∧ (i 1).val < win0_6.index t (1 : Fin 3) * 128 + 128; omega
  | ⟨2, _⟩ => show win0_6.index t (2 : Fin 3) * 256 ≤ (i 2).val ∧ (i 2).val < win0_6.index t (2 : Fin 3) * 256 + 256; omega

/-- The result array after the run: the pair scores. -/
theorem final (c : Dev nD) : (dats m 0 c).arrAt 6 cfg0.N = scores m c :=
  (dats m 0 c).arrAt_eq_of_cover 6 (scores m c) (fun t _ => flushed_eq m c t) cover

/-! ## The run, read -/

/-- The idealized kernel program runs to the end with its result array at the pair scores and its arguments unchanged. -/
theorem run : θ_run defs (onTc (τ := τ) (main (F := Ideal))) ⟨m, fun _ => 0, ρ⟩ fun r => ∀ c : Dev nD,
      r.2.mem ((c : Thread nD τ).loc main_v2) = scores m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1 6).trans (final m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c)⟩) (run_main m ρ)

end Cert.KernelIdeal.Whole

end
-- ==== Proof.RefScore.lean ====
/-
  The reference program computes the pair score (PairScore.lean) at every index.
-/
import proofs.«104925_j59760174957314_1_alg».proof.Proof.Gen.ReferenceIdeal.Read
import proofs.«104925_j59760174957314_1_alg».proof.Proof.PairScore

noncomputable section

namespace Cert.ReferenceIdeal.RefScore

open Cert.ReferenceIdeal Cert.ReferenceIdeal.Read Idealize.ShloMosaic Idealize.ShloMosaic.ValueIdx Cert.PairScore

/-- The reshape from [4,1024,1024,1] back to [4,1024,1024] reads (b, i, j) at (b, i, j, 0). -/
theorem e23 (b : Fin 4) (i j : Fin 1024) : idx_main_v23 (ix3 b i j) = ix4 b i j (0 : Fin 1) := by
  funext a; apply Fin.ext
  have hb := b.isLt; have hi := i.isLt; have hj := j.isLt
  match a with
  | ⟨0, _⟩ => show ((b.val * 1024 + i.val) * 1024 + j.val) / 1048576 = b.val; omega
  | ⟨1, _⟩ => show ((b.val * 1024 + i.val) * 1024 + j.val) / 1024 % 1024 = i.val; omega
  | ⟨2, _⟩ => show ((b.val * 1024 + i.val) * 1024 + j.val) / 1 % 1024 = j.val; omega
  | ⟨3, _⟩ => rfl

/-- The reference's result, read one operation at a time, is the pair score: its broadcasts only move coordinates
    (the row node's projection is read at (b, i, u), the column node's at (b, j, u), the biases at u and at 0), its two
    `dot_general`s over the embedding axis are the two projections, the one over the hidden axis the weighted sum, and
    1 / (1 + exp (−x)) is the logistic function. -/
theorem ref_is_score (x0 : (⟨S4x1024x16, .f32⟩ : BufTy).Contents (Elt Ideal)) (x1 : (⟨S32x32, .f32⟩ : BufTy).Contents (Elt Ideal))
    (x2 : (⟨S32, .f32⟩ : BufTy).Contents (Elt Ideal)) (x3 : (⟨S32x1, .f32⟩ : BufTy).Contents (Elt Ideal)) (x4 : (⟨S1, .f32⟩ : BufTy).Contents (Elt Ideal)) :
    val_main_v23 (F := Ideal) x0 x1 x2 x3 x4 = score x0 x1 x2 x3 x4 := by
  funext idx
  obtain ⟨b, i, j, rfl⟩ : ∃ (b : Fin 4) (i : Fin 1024) (j : Fin 1024), idx = ix3 b i j := ⟨idx 0, idx 1, idx 2, eq_ix3 idx⟩
  rw [score_apply, val_main_v23_apply, e23]
  simp only [val_main_v22_apply, val_main_v21_apply, val_main_cst_0_apply, val_main_v20_apply, val_main_v19_apply, val_main_cst_apply,
    val_main_v18_apply, val_main_v17_apply, val_main_v16_apply, val_main_v13_apply, val_main_v15_apply, val_main_v14_apply,
    val_main_v12_apply, val_main_call0_v0_apply, val_main_call0_cst_apply, val_main_v11_apply, val_main_v8_apply, val_main_v10_apply, val_main_v9_apply,
    val_main_v6_apply, val_main_v7_apply, val_main_v4_apply, val_main_v5_apply, val_main_v1_apply, val_main_v3_apply, val_main_v0_apply, val_main_v2_apply]
  have a0 : ∀ (u : Fin 32) (k : Fin 16), lidx_main_v1 (idx_main_v4 (idx_main_v6 (lidx_main_v13 (ix4 b i j 0) u))) k = ix3 b i k :=
    fun u k => funext fun a => Fin.ext (by match a with | ⟨0, _⟩ => rfl | ⟨1, _⟩ => rfl | ⟨2, _⟩ => rfl)
  have a1 : ∀ (u : Fin 32) (k : Fin 16), idx_main_v0 (ridx_main_v1 (idx_main_v4 (idx_main_v6 (lidx_main_v13 (ix4 b i j 0) u))) k)
      = ix2 (⟨k.val, by have := k.isLt; omega⟩ : Fin 32) u :=
    fun u k => funext fun a => Fin.ext (by match a with | ⟨0, _⟩ => rfl | ⟨1, _⟩ => rfl)
  have a2 : ∀ (u : Fin 32) (k : Fin 16), lidx_main_v3 (idx_main_v5 (idx_main_v7 (lidx_main_v13 (ix4 b i j 0) u))) k = ix3 b j k :=
    fun u k => funext fun a => Fin.ext (by match a with | ⟨0, _⟩ => rfl | ⟨1, _⟩ => rfl | ⟨2, _⟩ => rfl)
  have a3 : ∀ (u : Fin 32) (k : Fin 16), idx_main_v2 (ridx_main_v3 (idx_main_v5 (idx_main_v7 (lidx_main_v13 (ix4 b i j 0) u))) k)
      = ix2 (⟨16 + k.val, by have := k.isLt; omega⟩ : Fin 32) u :=
    fun u k => funext fun a => Fin.ext (by match a with | ⟨0, _⟩ => rfl | ⟨1, _⟩ => rfl)
  have a4 : ∀ u : Fin 32, idx_main_v9 (idx_main_v10 (lidx_main_v13 (ix4 b i j 0) u)) = ix1 u :=
    fun u => funext fun a => Fin.ext (by match a with | ⟨0, _⟩ => rfl)
  have a5 : ∀ u : Fin 32, ridx_main_v13 (ix4 b i j 0) u = ix2 u (0 : Fin 1) :=
    fun u => funext fun a => Fin.ext (by match a with | ⟨0, _⟩ => rfl | ⟨1, _⟩ => rfl)
  have a6 : idx_main_v14 (idx_main_v15 (ix4 b i j 0)) = ix1 (0 : Fin 1) :=
    funext fun a => Fin.ext (by match a with | ⟨0, _⟩ => rfl)
  simp only [a0, a1, a2, a3, a4, a5, a6, Ideal.hostDivf_def, Ideal.addf_def, Ideal.hostUnary_exp_def, Ideal.hostNegf_def, Ideal.negf_def,
    Ideal.maximumf_def, Ideal.ofBits_def, ofBits_one_f32, logit, projRow, projCol, Ideal.logistic]

end Cert.ReferenceIdeal.RefScore

end
-- ==== Proof.lean ====
/-
  A pairwise edge scorer on graphs: for every graph b and every pair of nodes (i, j) the score is
  sigmoid (Σ_u relu (emb[b,i,:]·W1[0:16,u] + emb[b,j,:]·W1[16:32,u] + b1[u])·W2[u,0] + b2[0]).

  The kernel computes it tile by tile over a grid of (graph, 128-row tile, 256-column tile), reading the node
  embeddings through two windows (the tile's row nodes and its column nodes) and keeping the four small parameter
  arrays resident; the reference forms the whole [4,1024,1024,32] hidden array with broadcasts.  On the extended reals
  the two are the same function of the arguments, sum by sum: rounding the products' factors is the identity, a product
  into a zero accumulator is the plain sum, the kernel's logistic step is the reference's 1 / (1 + exp (−x)), and only
  the order-free finite sums are regrouped — so the inputs' finiteness is never used.

  * the three programs' frames: the two kernel programs by the run of the whole grid (the embeddings' share halved
    between the two windows that read them), the reference by its run read back;
  * the idealization rewrote nothing;
  * both idealized programs end with the pair scores (PairScore.lean) of the arguments in their result arrays.
-/
import proofs.«104925_j59760174957314_1_alg».proof.Defs
import proofs.«104925_j59760174957314_1_alg».proof.Proof.Gen.Kernel
import proofs.«104925_j59760174957314_1_alg».proof.Proof.Gen.KernelIdeal
import proofs.«104925_j59760174957314_1_alg».proof.Proof.Gen.ReferenceIdeal
import proofs.«104925_j59760174957314_1_alg».proof.Proof.Gen.Pre_finite_inputs
import proofs.«104925_j59760174957314_1_alg».proof.Proof.Gen.ReferenceIdeal.Run
import proofs.«104925_j59760174957314_1_alg».proof.Proof.Gen.ReferenceIdeal.Read
import proofs.«104925_j59760174957314_1_alg».proof.Proof.KernelRun
import proofs.«104925_j59760174957314_1_alg».proof.Proof.KernelIdealRun
import proofs.«104925_j59760174957314_1_alg».proof.Proof.Whole
import proofs.«104925_j59760174957314_1_alg».proof.Proof.RefScore
import Idealize.ShloMosaic.Adequacy
import Idealize.ShloMosaic.Init

noncomputable section

namespace Cert.Proof

open Idealize.ShloMosaic Idealize.SL.Sem

/-- The kernel program as printed terminates, faults nowhere and leaves its arguments unchanged. -/
theorem frame_kernel : Cert.frame_Kernel := fun m ρ _ => Cert.Kernel.Fr.frame m ρ

/-- The same of its idealization. -/
theorem frame_kernelIdeal : Cert.frame_KernelIdeal := fun m ρ _ => Cert.KernelIdeal.Fr.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the pair scores of the arguments. -/
theorem algebraic : Cert.algebraic_KernelIdeal_ReferenceIdeal := by
  intro m ρ m' ρ' _ hagree
  refine ⟨fun c => Cert.KernelIdeal.Whole.scores m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefScore.ref_is_score,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
